-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x729x1x3x3 : Shape := ⟨5, ![64, 729, 1, 3, 3]⟩
abbrev S729x1x3x3 : Shape := ⟨4, ![729, 1, 3, 3]⟩
abbrev S_ : Shape := ⟨0, ![]⟩

class Facts : Prop where
  bcast_S_S64x729x1x3x3 : S_.BroadcastsInDim S64x729x1x3x3 (![] : Fin 0 → Fin S64x729x1x3x3.rank)
  reducesTo_S64x729x1x3x3_S_d0_1_2_3_4 : S64x729x1x3x3.ReducesTo [0, 1, 2, 3, 4] S_
  h_S_ : 0 < S_.numel
  bcast_S_S729x1x3x3 : S_.BroadcastsInDim S729x1x3x3 (![] : Fin 0 → Fin S729x1x3x3.rank)
  reducesTo_S729x1x3x3_S_d0_1_2_3 : S729x1x3x3.ReducesTo [0, 1, 2, 3] S_

variable [Facts]

def fn {F : FTy → Type} [FloatOps F] (main_arg0 : FVec F S64x729x1x3x3 .f32) (main_arg1 : FVec F S729x1x3x3 .f32) : IVec S_ 1 :=
  let main_v0 : FVec F S64x729x1x3x3 .f32 := Host.absf main_arg0
  let main_cst : FVec F S_ .f32 := constant S_ .f32 0x7F800000#32
  let main_v1 : FVec F S64x729x1x3x3 .f32 := broadcastInDim S64x729x1x3x3 ![] bcast_S_S64x729x1x3x3 main_cst
  let main_v2 : IVec S64x729x1x3x3 1 := cmpf .olt main_v0 main_v1
  let main_c : IVec S_ 1 := constantI S_ 1 1#1
  let main_v3 : IVec S_ 1 := (fun x v => Host.reduce IntOp.andi x v reducesTo_S64x729x1x3x3_S_d0_1_2_3_4 h_S_) main_v2 main_c
  let main_v4 : FVec F S729x1x3x3 .f32 := Host.absf main_arg1
  let main_cst_0 : FVec F S_ .f32 := constant S_ .f32 0x7F800000#32
  let main_v5 : FVec F S729x1x3x3 .f32 := broadcastInDim S729x1x3x3 ![] bcast_S_S729x1x3x3 main_cst_0
  let main_v6 : IVec S729x1x3x3 1 := cmpf .olt main_v4 main_v5
  let main_c_1 : IVec S_ 1 := constantI S_ 1 1#1
  let main_v7 : IVec S_ 1 := (fun x v => Host.reduce IntOp.andi x v reducesTo_S729x1x3x3_S_d0_1_2_3 h_S_) main_v6 main_c_1
  let main_v8 : IVec S_ 1 := andi main_v3 main_v7
  main_v8
-- ==== Kernel.lean ====
abbrev S64x729x1x3x3 : Shape := ⟨5, ![64, 729, 1, 3, 3]⟩
abbrev S729x1x3x3 : Shape := ⟨4, ![729, 1, 3, 3]⟩
abbrev S64x729x729 : Shape := ⟨3, ![64, 729, 729]⟩
abbrev S8x729x729 : Shape := ⟨3, ![8, 729, 729]⟩
abbrev S729x729 : Shape := ⟨2, ![729, 729]⟩
abbrev S1x729x729 : Shape := ⟨3, ![1, 729, 729]⟩

abbrev nBuf : Space → Nat
  | .hbm => 3
  | .vmem => 2
  | .smem => 0
  | _ => 0

abbrev bufTy : (tb : Table) → Fin (tcTables nBuf tb) → BufTy
  | .hbm, ⟨0, _⟩ => ⟨S64x729x1x3x3, .f32⟩
  | .hbm, ⟨1, _⟩ => ⟨S729x1x3x3, .f32⟩
  | .hbm, ⟨2, _⟩ => ⟨S64x729x729, .f32⟩
  | .local _ .vmem, ⟨0, _⟩ => ⟨S8x729x729, .f32⟩
  | .local _ .vmem, ⟨1, _⟩ => ⟨S8x729x729, .f32⟩
  | _, _ => ⟨S64x729x1x3x3, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x729x729 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  iota_S729x729_d0_w32 : S729x729.Iotas .tc 32 [0]
  iota_S729x729_d1_w32 : S729x729.Iotas .tc 32 [1]
  natLt_1_32 : 1 < 32
  inb_S8x729x729_S1x729x729_0_0_0 : ∀ a, (![0, 0, 0] : Fin 3 → Nat) a + S1x729x729.size a ≤ S8x729x729.size a
  h_S1x729x729 : 0 < S1x729x729.numel
  shapeCasts_S1x729x729_S729x729 : S1x729x729.ShapeCasts S729x729
  shapeCasts_S729x729_S1x729x729 : S729x729.ShapeCasts S1x729x729
  inb_S8x729x729_S1x729x729_1_0_0 : ∀ a, (![1, 0, 0] : Fin 3 → Nat) a + S1x729x729.size a ≤ S8x729x729.size a
  inb_S8x729x729_S1x729x729_2_0_0 : ∀ a, (![2, 0, 0] : Fin 3 → Nat) a + S1x729x729.size a ≤ S8x729x729.size a
  inb_S8x729x729_S1x729x729_3_0_0 : ∀ a, (![3, 0, 0] : Fin 3 → Nat) a + S1x729x729.size a ≤ S8x729x729.size a
  inb_S8x729x729_S1x729x729_4_0_0 : ∀ a, (![4, 0, 0] : Fin 3 → Nat) a + S1x729x729.size a ≤ S8x729x729.size a
  inb_S8x729x729_S1x729x729_5_0_0 : ∀ a, (![5, 0, 0] : Fin 3 → Nat) a + S1x729x729.size a ≤ S8x729x729.size a
  inb_S8x729x729_S1x729x729_6_0_0 : ∀ a, (![6, 0, 0] : Fin 3 → Nat) a + S1x729x729.size a ≤ S8x729x729.size a
  inb_S8x729x729_S1x729x729_7_0_0 : ∀ a, (![7, 0, 0] : Fin 3 → Nat) a + S1x729x729.size a ≤ S8x729x729.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x729x729.size a ≤ S64x729x729.size a
  hwx0_0 : ∀ i : grid0.Coords, EltTy.bits .f32 = 32 ∨ (Rect.block (s := S64x729x729) S8x729x729.size (cc0_transform_0 i) (hinb0_0 i)).WholeWords (EltTy.packing .f32)

variable [Facts₀]

abbrev win0_0 : Pipeline.Window sig grid0 :=
  Pipeline.Window.ofSpec (Memref.whole main_v0) S8x729x729.size cc0_transform_0 reads0_0 true false 2 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S64x729x1x3x3 : Shape := ⟨5, ![64, 729, 1, 3, 3]⟩
abbrev S729x1x3x3 : Shape := ⟨4, ![729, 1, 3, 3]⟩
abbrev S729x729 : Shape := ⟨2, ![729, 729]⟩
abbrev S_ : Shape := ⟨0, ![]⟩
abbrev S1x729x729 : Shape := ⟨3, ![1, 729, 729]⟩
abbrev S64x729x729 : Shape := ⟨3, ![64, 729, 729]⟩

abbrev nBuf : Space → Nat
  | .hbm => 11
  | .vmem => 0
  | .smem => 0
  | _ => 0

abbrev bufTy : (tb : Table) → Fin (tcTables nBuf tb) → BufTy
  | .hbm, ⟨0, _⟩ => ⟨S64x729x1x3x3, .f32⟩
  | .hbm, ⟨1, _⟩ => ⟨S729x1x3x3, .f32⟩
  | .hbm, ⟨2, _⟩ => ⟨S729x729, .i32⟩
  | .hbm, ⟨3, _⟩ => ⟨S729x729, .i32⟩
  | .hbm, ⟨4, _⟩ => ⟨S_, .i32⟩
  | .hbm, ⟨5, _⟩ => ⟨S729x729, .i32⟩
  | .hbm, ⟨6, _⟩ => ⟨S729x729, .i32⟩
  | .hbm, ⟨7, _⟩ => ⟨S729x729, .i1⟩
  | .hbm, ⟨8, _⟩ => ⟨S729x729, .f32⟩
  | .hbm, ⟨9, _⟩ => ⟨S1x729x729, .f32⟩
  | .hbm, ⟨10, _⟩ => ⟨S64x729x729, .f32⟩
  | _, _ => ⟨S64x729x1x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S_S729x729 : S_.BroadcastsInDim S729x729 (![] : Fin 0 → Fin S729x729.rank)
  bcast_S729x729_S1x729x729_1_2 : S729x729.BroadcastsInDim S1x729x729 (![1, 2] : Fin 2 → Fin S1x729x729.rank)
  bcast_S1x729x729_S64x729x729_0_1_2 : S1x729x729.BroadcastsInDim S64x729x729 (![0, 1, 2] : Fin 3 → Fin S64x729x729.rank)

variable [Facts₀]

class Facts : Prop extends Facts₀ where

variable [Facts]
-- ==== Proof.Diagonal.lean ====
/-
  The identity pattern, entry by entry. Both programs build the same 729 × 729 array of zeros and ones from the two
  coordinate arrays: they compare the row number with the column number as 32-bit words, and turn the one-bit answer
  into a float. The kernel widens the bit to 32 bits and converts it as a signed integer; the reference first adds the
  zero word to the row number and converts the bit as an unsigned integer. On the extended reals both conversions are
  exact, so each entry is the real number 1 when the two coordinates are equal and 0 otherwise. Coordinates below 2³²
  are equal as words exactly when they are equal as numbers, which is all the arithmetic there is.
-/
import Idealize.ShloMosaic.PureOps.Ideal

noncomputable section

namespace Cert.Diagonal

open Idealize.ShloMosaic

/-- The entry at row `a`, column `b`: one on the diagonal, zero off it. -/
def delta (a b : ℕ) : EReal := if a = b then 1 else 0

/-- Two numbers below 2³², compared as 32-bit words: the answer bit says whether they are equal. -/
theorem cmpi_eq_ofNat (a b : ℕ) (ha : a < 2 ^ 32) (hb : b < 2 ^ 32) :
    IntOp.cmpi .eq (BitVec.ofNat 32 a) (BitVec.ofNat 32 b) = BitVec.ofBool (decide (a = b)) := by
  unfold IntOp.cmpi
  by_cases h : a = b
  · subst h; simp
  · have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    show BitVec.ofBool (BitVec.ofNat 32 a == BitVec.ofNat 32 b) = _
    rw [beq_eq_false_iff_ne.mpr hne, decide_eq_false h]

/-- The kernel's entry: the answer bit widened to 32 bits and converted as a signed integer. -/
theorem signed_entry (a b : ℕ) (ha : a < 2 ^ 32) (hb : b < 2 ^ 32) :
    FloatOps.sitofp (F := Ideal) .f32 ((IntOp.cmpi .eq (BitVec.ofNat 32 a) (BitVec.ofNat 32 b)).setWidth 32) = delta a b := by
  rw [cmpi_eq_ofNat a b ha hb]
  unfold delta
  by_cases h : a = b
  · rw [if_pos h, decide_eq_true h]
    show (((((BitVec.ofBool true).setWidth 32).toInt : ℤ) : ℝ) : EReal) = 1
    rw [show ((BitVec.ofBool true).setWidth 32).toInt = 1 from by decide]
    norm_num
  · rw [if_neg h, decide_eq_false h]
    show (((((BitVec.ofBool false).setWidth 32).toInt : ℤ) : ℝ) : EReal) = 0
    rw [show ((BitVec.ofBool false).setWidth 32).toInt = 0 from by decide]
    norm_num

/-- The reference's entry: the row number plus the zero word, compared, the answer bit converted as an unsigned integer. -/
theorem unsigned_entry (a b : ℕ) (ha : a < 2 ^ 32) (hb : b < 2 ^ 32) :
    FloatOps.uitofp (F := Ideal) .f32 (IntOp.cmpi .eq (IntOp.addi (BitVec.ofNat 32 a) 0#32) (BitVec.ofNat 32 b)) = delta a b := by
  rw [show IntOp.addi (BitVec.ofNat 32 a) 0#32 = BitVec.ofNat 32 a from BitVec.add_zero _, cmpi_eq_ofNat a b ha hb]
  unfold delta
  by_cases h : a = b
  · rw [if_pos h, decide_eq_true h]
    show ((((BitVec.ofBool true).toNat : ℕ) : ℝ) : EReal) = 1
    rw [show (BitVec.ofBool true).toNat = 1 from by decide]
    norm_num
  · rw [if_neg h, decide_eq_false h]
    show ((((BitVec.ofBool false).toNat : ℕ) : ℝ) : EReal) = 0
    rw [show (BitVec.ofBool false).toNat = 0 from by decide]
    norm_num

/-- The whole result: 64 copies of the identity pattern, one per batch entry. The entry at `(n, a, b)` does not look at the
    batch number `n`. -/
def eyes : (⟨3, ![64, 729, 729]⟩ : Shape).Idx → Ideal .f32 := fun i => delta (i 1).val (i 2).val

end Cert.Diagonal

end
-- ==== Proof.KernelTile.lean ====
/-
  What the kernel's body leaves in its staging buffer. The body computes one 729 × 729 tile — the row number compared
  with the column number, the answer bit widened and converted to a float — and stores that same tile, under a leading
  axis of extent one, into each of the eight batch slots of the 8 × 729 × 729 buffer. The slot a store goes to moves
  only the first coordinate, so every store's payload is the restriction to its slot of ONE function of the buffer's
  index: the identity pattern of the last two coordinates. Eight such stores that tile the buffer leave that function.
-/
import proofs.«142107_j40656160424267_2_alg».proof.Proof.KernelIdealFrameP
import proofs.«142107_j40656160424267_2_alg».proof.Proof.Diagonal
import Idealize.ShloMosaic.Lib.Pipeline.Value

set_option maxRecDepth 16384

noncomputable section

namespace Cert.KernelIdeal.Tile

open Cert.KernelIdeal Cert.KernelIdeal.Gen Cert.KernelIdeal.GenP Idealize.ShloMosaic Cert.Diagonal

/-- The tile at row `a`, column `b` is one on the diagonal and zero off it. -/
theorem tile_apply (j : S729x729.Idx) : k0_pay2 (F := Ideal) j = delta (j 0).val (j 1).val := by
  have h0 : (j 0).val < 729 := (j 0).isLt
  have h1 : (j 1).val < 729 := (j 1).isLt
  unfold k0_pay2
  show FloatOps.sitofp (F := Ideal) .f32 ((IntOp.cmpi .eq (iota .tc S729x729 32 [0] iota_S729x729_d0_w32 j)
    (iota .tc S729x729 32 [1] iota_S729x729_d1_w32 j)).setWidth 32) = _
  rw [iota_single_apply, iota_single_apply]
  exact signed_entry (j 0).val (j 1).val (by omega) (by omega)

/-- The tile under a new leading axis of extent one: the entry at `(0, a, b)` is the tile's at `(a, b)`. -/
theorem slab_apply (x : S1x729x729.Idx) :
    shapeCast S1x729x729 (k0_pay2 (F := Ideal)) shapeCasts_S729x729_S1x729x729 x = delta (x 1).val (x 2).val := by
  refine (shapeCast_addUnit_apply ![729, 729] (k0_pay2 (F := Ideal)) shapeCasts_S729x729_S1x729x729 x).trans ?_
  exact tile_apply _

/-- The identity pattern on the staging buffer: it does not look at the slot number. -/
def slots : Vec Ideal S8x729x729 .f32 := fun y => delta (y 1).val (y 2).val

/-- A store into slot `b` keeps the last two coordinates. -/
theorem slot_emb (b : ℕ) (inb : ∀ a, (![b, 0, 0] : Fin 3 → Nat) a + S1x729x729.size a ≤ S8x729x729.size a)
    (x : (Rect.unit (s := S8x729x729) ![b, 0, 0] S1x729x729.size inb).shape.Idx) :
    slots ((Rect.unit (s := S8x729x729) ![b, 0, 0] S1x729x729.size inb).emb x) = delta (x 1).val (x 2).val := by
  unfold slots
  have e1 : (((Rect.unit (s := S8x729x729) ![b, 0, 0] S1x729x729.size inb).emb x) 1).val = (x 1).val := by
    rw [Rect.emb_apply]; show 0 + 1 * (x 1).val = _; omega
  have e2 : (((Rect.unit (s := S8x729x729) ![b, 0, 0] S1x729x729.size inb).emb x) 2).val = (x 2).val := by
    rw [Rect.emb_apply]; show 0 + 1 * (x 2).val = _; omega
  rw [e1, e2]

/-- After the body the staging buffer holds the identity pattern in every slot. -/
theorem out_eq : out0_0 (F := Ideal) = slots := by
  funext y
  unfold out0_0
  refine View.canon_apply_of_pieces (Val := Elt Ideal) slots _ ?_ y (cover0_0 _ _ _ _ _ _ _ _ y)
  intro p hp x
  simp only [List.mem_cons, List.not_mem_nil, or_false] at hp
  rcases hp with rfl | rfl | rfl | rfl | rfl | rfl | rfl | rfl
  all_goals
    rw [slot_emb]
    exact slab_apply x

end Cert.KernelIdeal.Tile

end
-- ==== Proof.KernelArray.lean ====
/-
  From blocks to the whole result. The launch has eight grid points; point `t` writes its staging buffer back to batch
  entries `8 t … 8 t + 7` of the 64 × 729 × 729 result, rows and columns unmoved. The staging buffer holds the identity
  pattern in every slot, and the identity pattern of the whole result does not look at the batch number either, so what
  point `t` writes back is exactly the block of the whole pattern it covers. The eight blocks tile the batch axis (batch
  entry `n` lies in block `n / 8`), hence after the run the result array is the pattern everywhere.
-/
import proofs.«142107_j40656160424267_2_alg».proof.Proof.KernelTile

set_option maxRecDepth 16384

noncomputable section

namespace Cert.KernelIdeal.Whole

open Cert.KernelIdeal Cert.KernelIdeal.Gen Cert.KernelIdeal.GenP Idealize.ShloMosaic Idealize.ShloMosaic.TcCoe Idealize.SL.Sem
open Idealize.ShloMosaic.Pipeline (Dat)
open Cert.Diagonal Cert.KernelIdeal.Tile

variable (m : (ℓ : Loc nD τ sig) → Buf (Elt Ideal) ℓ) (ρ : Dev nD → PrngReg)

/-- The block index of every grid point: some batch block below eight, and block zero on rows and columns. -/
theorem block_index : ∀ t : Fin cfg0.N, win0_0.index t (0 : Fin 3) ≤ 7
    ∧ win0_0.index t (1 : Fin 3) = 0 ∧ win0_0.index t (2 : Fin 3) = 0 :=
  (by decide +kernel : ∀ t : Fin grid0.N, _)

/-- Every batch block is some grid point's. -/
theorem block_onto : ∀ q : Fin 8, ∃ t : Fin cfg0.N, win0_0.index t = ![q.val, 0, 0] :=
  (by decide +kernel : ∀ q : Fin 8, ∃ t : Fin grid0.N, win0_0.index t = ![q.val, 0, 0])

/-- What point `t` writes back is the block of the whole pattern that it covers. -/
theorem flushed_eq (c : Dev nD) (t : Fin cfg0.N) :
    (dats m 0 c).flushed 0 t = ((cfg0.win 0).blk t).view.read (Elt Ideal) eyes := by
  show (cfg0.win 0).cut (grid0.coords t) ((dats m 0 c).after 0 t) = _
  rw [after0_0, out_eq]
  obtain ⟨-, e1, e2⟩ := block_index t
  funext j
  show delta (j 1).val (j 2).val = delta ((((cfg0.win 0).blk t).view.emb j) 1).val ((((cfg0.win 0).blk t).view.emb j) 2).val
  have h1 : ((((cfg0.win 0).blk t).view.emb j) 1).val = (j 1).val := by
    show win0_0.index t (1 : Fin 3) * 729 + 1 * (j 1).val = (j 1).val
    rw [e1]; omega
  have h2 : ((((cfg0.win 0).blk t).view.emb j) 2).val = (j 2).val := by
    show win0_0.index t (2 : Fin 3) * 729 + 1 * (j 2).val = (j 2).val
    rw [e2]; omega
  rw [h1, h2]

/-- An index of the result is in point `t`'s block iff each coordinate is in the block's range on its axis. -/
theorem mem_block (t : Fin cfg0.N) (i : S64x729x729.Idx) :
    i ∈ ((cfg0.win 0).blk t).view.set ↔ ∀ a : Fin 3, win0_0.index t a * S8x729x729.size a ≤ (i a).val
      ∧ (i a).val < win0_0.index t a * S8x729x729.size a + S8x729x729.size a := by
  show i ∈ ((View.whole main_v0).slice (win0_0.rect t)).set ↔ _
  rw [View.set_slice_whole, Rect.mem_set_unit]
  exact Iff.rfl

/-- Every index of the result lies in some point's block: batch entry `n` in block `n / 8`. -/
theorem covered (i : S64x729x729.Idx) :
    ∃ t : Fin cfg0.N, (cfg0.win 0).flush t = true ∧ i ∈ ((cfg0.win 0).blk t).view.set := by
  have hi0 : (i 0).val < 64 := (i 0).isLt
  have hi1 : (i 1).val < 729 := (i 1).isLt
  have hi2 : (i 2).val < 729 := (i 2).isLt
  obtain ⟨t, ht⟩ := block_onto ⟨(i 0).val / 8, by omega⟩
  have q0 : win0_0.index t (0 : Fin 3) = (i 0).val / 8 := congrFun ht 0
  have q1 : win0_0.index t (1 : Fin 3) = 0 := congrFun ht 1
  have q2 : win0_0.index t (2 : Fin 3) = 0 := congrFun ht 2
  refine ⟨t, flush0_0 t, ?_⟩
  rw [mem_block]
  intro a
  match a with
  | ⟨0, _⟩ => show win0_0.index t (0 : Fin 3) * 8 ≤ (i 0).val ∧ (i 0).val < win0_0.index t (0 : Fin 3) * 8 + 8; omega
  | ⟨1, _⟩ => show win0_0.index t (1 : Fin 3) * 729 ≤ (i 1).val ∧ (i 1).val < win0_0.index t (1 : Fin 3) * 729 + 729; omega
  | ⟨2, _⟩ => show win0_0.index t (2 : Fin 3) * 729 ≤ (i 2).val ∧ (i 2).val < win0_0.index t (2 : Fin 3) * 729 + 729; omega

/-- After the run the result array is the identity pattern in every batch entry. -/
theorem final (c : Dev nD) : (dats m 0 c).arrAt 0 cfg0.N = eyes :=
  (dats m 0 c).arrAt_eq_of_cover 0 eyes (fun t _ => flushed_eq m c t) covered

/-- The kernel's run: it terminates with the result array at the identity pattern and the arguments as launched. -/
theorem run : θ_run defs (onTc (τ := τ) (main (F := Ideal))) ⟨m, fun _ => 0, ρ⟩ fun r => ∀ c : Dev nD,
      r.2.mem ((c : Thread nD τ).loc main_v0) = eyes
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 0).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Whole

end
-- ==== Proof.ReferencePattern.lean ====
/-
  The reference, read entry by entry. It builds the row-number and column-number arrays of a 729 × 729 tile, adds a
  broadcast zero to the row numbers, compares, converts the answer bit to a float, and then broadcasts the tile twice:
  first under a new leading axis of extent one, then along that axis to the 64 batch entries. A broadcast reads its
  operand at the same row and column whatever the batch number, so the entry at `(n, a, b)` of the result is the tile's
  entry at `(a, b)`: the identity pattern.
-/
import proofs.«142107_j40656160424267_2_alg».proof.Proof.Gen.ReferenceIdeal.Read
import proofs.«142107_j40656160424267_2_alg».proof.Proof.Diagonal

noncomputable section

namespace Cert.ReferenceIdeal.Pattern

open Cert.ReferenceIdeal Cert.ReferenceIdeal.Gen Cert.ReferenceIdeal.Read Idealize.ShloMosaic

/-- The reference's result is the identity pattern in every batch entry. -/
theorem result_eq : val_main_v7 (F := Ideal) = Cert.Diagonal.eyes := by
  funext i
  have h1 : (i 1).val < 729 := (i 1).isLt
  have h2 : (i 2).val < 729 := (i 2).isLt
  rw [val_main_v7_apply, val_main_v6_apply, val_main_v5_apply, val_main_v4_apply, val_main_v3_apply, val_main_v0_apply,
    val_main_v2_apply, val_main_c_apply, val_main_v1_apply]
  exact Cert.Diagonal.unsigned_entry (i 1).val (i 2).val (by omega) (by omega)

end Cert.ReferenceIdeal.Pattern

end
-- ==== Proof.lean ====
/-
  The kernel fills a 64 × 729 × 729 result with the identity pattern: entry `(n, a, b)` is one when `a = b` and zero
  otherwise, whatever the batch number `n` and whatever the two arguments hold. The reference builds the same pattern once
  and broadcasts it over the batch axis. On the extended reals both sides compare a row number with a column number as
  32-bit words and convert the one-bit answer exactly (Proof/Diagonal.lean), so both result arrays are the one function
  `Cert.Diagonal.eyes`:
    * the reference's run, read operation by operation, ends at it (Proof/ReferencePattern.lean);
    * the kernel's body leaves the pattern in each of the eight slots of its staging buffer (Proof/KernelTile.lean), each of
      the eight grid points writes its buffer back to its own eight batch entries, and the eight blocks tile the result
      (Proof/KernelArray.lean).
  Neither side reads its arguments, so the precondition is never opened, and no law of the extended reals beyond the
  two exact conversions is used. The idealization rewrote nothing, so `preserves` is trivial. The three frames are the
  runs themselves with the result dropped.
-/
import proofs.«142107_j40656160424267_2_alg».proof.Defs
import proofs.«142107_j40656160424267_2_alg».proof.Proof.Gen.Kernel
import proofs.«142107_j40656160424267_2_alg».proof.Proof.Gen.KernelIdeal
import proofs.«142107_j40656160424267_2_alg».proof.Proof.Gen.ReferenceIdeal
import proofs.«142107_j40656160424267_2_alg».proof.Proof.Gen.Pre_finite_inputs
import proofs.«142107_j40656160424267_2_alg».proof.Proof.Gen.ReferenceIdeal.Run
import proofs.«142107_j40656160424267_2_alg».proof.Proof.Gen.ReferenceIdeal.Read
import proofs.«142107_j40656160424267_2_alg».proof.Proof.KernelFrameP
import proofs.«142107_j40656160424267_2_alg».proof.Proof.KernelIdealFrameP
import proofs.«142107_j40656160424267_2_alg».proof.Proof.KernelArray
import proofs.«142107_j40656160424267_2_alg».proof.Proof.ReferencePattern

noncomputable section

namespace Cert.Proof

open Idealize.ShloMosaic Idealize.SL.Sem

/-- The word-level kernel terminates and leaves its arguments as launched. -/
theorem frame_kernel : Cert.frame_Kernel := fun m ρ _ => Cert.Kernel.GenP.frame m ρ

/-- So does the kernel read on the extended reals. -/
theorem frame_kernelIdeal : Cert.frame_KernelIdeal := fun m ρ _ => Cert.KernelIdeal.GenP.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the identity pattern in every batch entry. -/
theorem algebraic : Cert.algebraic_KernelIdeal_ReferenceIdeal := by
  intro m ρ m' ρ' _ _
  refine ⟨fun _ => Cert.Diagonal.eyes, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq]
  exact Cert.ReferenceIdeal.Pattern.result_eq

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
